-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S_ : Shape := ⟨0, ![]⟩
abbrev S1000x128 : Shape := ⟨2, ![1000, 128]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  reducesTo_S_S_d : S_.ReducesTo [] S_

variable [Facts]

def fn {F : FTy → Type} [FloatOps F] (main_arg0 : IVec S_ 32) (main_arg1 : FVec F S1000x128 .f32) : IVec S_ 1 :=
  let main_v0 : FVec F S1000x128 .f32 := Host.absf main_arg1
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_c_0 : IVec S_ 32 := constantI S_ 32 777#32
  let main_v4 : IVec S_ 1 := cmpi .sge main_arg0 main_c_0
  let main_c_1 : IVec S_ 32 := constantI S_ 32 777#32
  let main_v5 : IVec S_ 1 := cmpi .sle main_arg0 main_c_1
  let main_v6 : IVec S_ 1 := andi main_v4 main_v5
  let main_c_2 : IVec S_ 1 := constantI S_ 1 1#1
  let main_v7 : IVec S_ 1 := (fun x v => Host.reduce IntOp.andi x v reducesTo_S_S_d h_S_) main_v6 main_c_2
  let main_v8 : IVec S_ 1 := andi main_v3 main_v7
  main_v8
-- ==== Kernel.lean ====
abbrev S_ : Shape := ⟨0, ![]⟩
abbrev S1000x128 : Shape := ⟨2, ![1000, 128]⟩
abbrev S1 : Shape := ⟨1, ![1]⟩
abbrev S1x128 : Shape := ⟨2, ![1, 128]⟩

abbrev nBuf : Table → Nat
  | .hbm => 4
  | .local .scScalar .smem => 1
  | _ => 0

abbrev bufTy : (tb : Table) → Fin (nBuf tb) → BufTy
  | .hbm, ⟨0, _⟩ => ⟨S_, .i32⟩
  | .hbm, ⟨1, _⟩ => ⟨S1000x128, .f32⟩
  | .hbm, ⟨2, _⟩ => ⟨S1, .i32⟩
  | .hbm, ⟨3, _⟩ => ⟨S1x128, .f32⟩
  | .local .scScalar .smem, ⟨0, _⟩ => ⟨S1, .i32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0_r1 : BitVec 32 := 0#32
  ![v1.toNat, 0]

def k0_chk1 (v1 : BitVec 32) : Prop :=
  (∀ a, (k0_off1 v1) a + S1x128.size a ≤ S1000x128.size a)
instance k0_chk1.dec : ∀ (v1 : BitVec 32), Decidable (k0_chk1 v1) := fun v1 => decidable_of_iff' _ (Iff.of_eq (k0_chk1.eq_1 v1))
theorem k0_off1_inb : ∀ (v1 : BitVec 32) (k0_hw1 : k0_chk1 v1), ∀ a, (k0_off1 v1) a + S1x128.size a ≤ S1000x128.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S_S1 : S_.ShapeCasts S1
  inb_S1_S1_0 : ∀ a, (![0] : Fin 1 → Nat) a + S1.size a ≤ S1.size a
  numel1_S1 : S1.numel = 1
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S_ : Shape := ⟨0, ![]⟩
abbrev S1000x128 : Shape := ⟨2, ![1000, 128]⟩
abbrev S1 : Shape := ⟨1, ![1]⟩
abbrev S1x1 : Shape := ⟨2, ![1, 1]⟩
abbrev S1x128 : Shape := ⟨2, ![1, 128]⟩

abbrev nBuf : Space → Nat
  | .hbm => 25
  | .vmem => 0
  | .smem => 0
  | _ => 0

abbrev bufTy : (tb : Table) → Fin (tcTables nBuf tb) → BufTy
  | .hbm, ⟨0, _⟩ => ⟨S_, .i32⟩
  | .hbm, ⟨1, _⟩ => ⟨S1000x128, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1x128, .f32⟩
  | .hbm, ⟨21, _⟩ => ⟨S1x128, .i1⟩
  | .hbm, ⟨22, _⟩ => ⟨S_, .f32⟩
  | .hbm, ⟨23, _⟩ => ⟨S1x128, .f32⟩
  | .hbm, ⟨24, _⟩ => ⟨S1x128, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x128_0 : S1.BroadcastsInDim S1x128 (![0] : Fin 1 → Fin S1x128.rank)
  bcast_S_S1x128 : S_.BroadcastsInDim S1x128 (![] : Fin 0 → Fin S1x128.rank)
  gather_S1000x128_S1x1_S1x128_1_0_n_n_0_1_1128_wf : GatherDims.WF S1000x128 S1x1 S1x128 [1] [0] [] [0] [] 1 ![1, 128]

variable [Facts₀]

def gather_S1000x128_S1x1_S1x128_1_0_n_n_0_1_1128 : GatherDims S1000x128 S1x1 S1x128 where
  offsetDims := [1]
  collapsedSliceDims := [0]
  operandBatchingDims := []
  startIndicesBatchingDims := []
  startIndexMap := [0]
  indexVectorDim := 1
  sliceSizes := ![1, 128]
  wf := gather_S1000x128_S1x1_S1x128_1_0_n_n_0_1_1128_wf

class Facts : Prop extends Facts₀ where

variable [Facts]
-- ==== Proof.KeyOfPre.lean ====
/-
  The input domain pins the key. The domain's predicate is the conjunction of "every table entry is finite" and
  "777 ≤ key ≤ 777" (signed); where it is all ones, each comparison of the key's word against 777 holds, and a signed
  32-bit word that is at least and at most 777 is the word 777.
-/
import proofs.«206550_g86517821210730_cont_sun_m_1190_6_alg».proof.Pre_input_domain
import Idealize.ShloMosaic.Lib.ReduceAll
import Idealize.ShloMosaic.Lib.ValueIdx

namespace Cert.Proof.KeyOfPre

open Idealize.ShloMosaic Cert.Pre_input_domain

instance : Subsingleton S_.Idx := ⟨fun a b => funext fun d => d.elim0⟩

variable {F : FTy → Type} [FloatOps F] [Cert.Pre_input_domain.Facts]

/-- Where the domain's predicate holds of a key and a table, the key is the word 777. -/
theorem key_eq (k : IVec S_ 32) (t : FVec F S1000x128 .f32)
    (h : Cert.Pre_input_domain.fn (F := F) k t = fun _ => 1#1) : k = fun _ => (777#32 : BitVec 32) := by
  have h0 := congrFun h ValueIdx.ix0
  dsimp only [fn] at h0
  obtain ⟨-, h7⟩ := IntOp.andi_eq_one.1 h0
  have h6 := Host.reduce_andi_all _ _ _ _ _ h7 ValueIdx.ix0
  obtain ⟨hge, hle⟩ := IntOp.andi_eq_one.1 h6
  have hge' := IntOp.cmpi_sge.1 hge
  have hle' := IntOp.cmpi_sle.1 hle
  funext j
  obtain rfl : j = ValueIdx.ix0 := Subsingleton.elim _ _
  exact BitVec.eq_of_toInt_eq (le_antisymm hle' hge')

end Cert.Proof.KeyOfPre
-- ==== Proof.RowCopyKernel.lean ====
/-
  The kernel's run, at any float instance. One sequencer of the device's first SparseCore copies the one-word index array
  into its scalar memory, reads the word `i`, and copies row `i` of the table (a 1 × 128 slice) onto the
  1 × 128 result; each copy is started and waited for on a semaphore of its own, so nothing is outstanding when the
  next begins. With the index word equal to 777 the slice is row 777, inside the table's 1000 rows, and the result
  array ends as that row, the table and the index unchanged.
-/
import proofs.«206550_g86517821210730_cont_sun_m_1190_6_alg».proof.Kernel
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«206550_g86517821210730_cont_sun_m_1190_6_alg».proof.Proof.Gen.Kernel
import proofs.«206550_g86517821210730_cont_sun_m_1190_6_alg».proof.Proof.Gen.Kernel.Skeleton

noncomputable section

namespace Cert.Proof.RowCopyKernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "iW" => (Memref.whole Cert.Kernel.main_v0_scs : Memref Cert.Kernel.sig Kind.scScalar Space.hbm Cert.Kernel.S1 EltTy.i32)
local notation "tW" => (Memref.whole Cert.Kernel.main_arg1_scs : Memref Cert.Kernel.sig Kind.scScalar Space.hbm Cert.Kernel.S1000x128 EltTy.f32)
local notation "oW" => (Memref.whole Cert.Kernel.main_v1_scs : Memref Cert.Kernel.sig Kind.scScalar Space.hbm Cert.Kernel.S1x128 EltTy.f32)
local notation "sW" => (Memref.whole Cert.Kernel.cc0_scratch0 : Memref Cert.Kernel.sig Kind.scScalar Space.smem Cert.Kernel.S1 EltTy.i32)

/-- The scalar key, the table, the one-word index array and the result, as the device's memory names them. -/
abbrev kLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-- The index array holding the word 777. -/
def idx777 (d : Dev nD) : Buf (Elt F) (iLoc d) := fun _ => (777#32 : BitVec 32)

/-- Row 777 of a table, as a 1 × 128 array: entry `(0, j)` is the table's entry `(777, j)`. -/
def row777 (d : Dev nD) (t : Buf (Elt F) (tLoc d)) : Buf (Elt F) (oLoc d) :=
  fun y => t (ValueIdx.ix2 (⟨777, by decide⟩ : Fin 1000) (y 1))

variable [FloatOps F]

/-- What the call hands the sequencer: the index array at 777, the table at its launch contents, the result array
    at whatever it holds. -/
def given (d : Dev nD) : sProp 𝕄 :=
  iprop((iLoc d ↦{fullShare} idx777 (F := F) d) ∗ (tLoc d ↦{fullShare} m (tLoc d)) ∗ ∃ f, oLoc d ↦{fullShare} f)

/-- What it takes back: the same, the result array now row 777 of the table. -/
def done (d : Dev nD) : sProp 𝕄 :=
  iprop((iLoc d ↦{fullShare} idx777 (F := F) d) ∗ (tLoc d ↦{fullShare} m (tLoc d)) ∗ oLoc d ↦{fullShare} row777 d (m (tLoc d)))

instance given_storable (d : Dev nD) : BI.Storable (upEmb : UEmb _ 𝕄) (given m d) := by
  unfold given; infer_instance
instance done_storable (d : Dev nD) : BI.Storable (upEmb : UEmb _ 𝕄) (done m d) := by
  unfold done; infer_instance

/-- The call's payloads: the three arrays out and back; the kernel's proof consumes nothing of the launch's. -/
def P : (K (F := F)).Pay (nD := nD) (Val := Elt F) (Name := ℕ) (U := UU) where
  st := fun _ d _ => given m d
  dn := fun _ d _ => done m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD)

def coordsS (c : Fin (grid0.bound 0)) : grid0.Coords := fun | 0 => c | ⟨_ + 1, h⟩ => absurd h (Nat.not_lt.2 (Nat.le_add_left _ _))

/-- The two copies' semaphores, as cells of the sequencer. -/
abbrev cellA (c : Fin τ.nSC) : GSem nD τ sig := (S d c, .dma cc0_scoped0.sem)
abbrev cellB (c : Fin τ.nSC) : GSem nD τ sig := (S d c, .dma cc0_scoped1.sem)

omit [FloatOps F] in
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scoped0.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped1.sem : SemLoc sig).isScoped .scScalar = true; decide⟩⟩)]

omit [FloatOps F] in
/-- The sequencer's scalar scratch is among its own buffers: it, at some contents, and the rest. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c)
    (b := (Proc.scScalar c).devRef cc0_scratch0) rfl)

omit [FloatOps F] in
/-- The arrays as the sequencer's memrefs address them are the device's arrays. -/
theorem pts_i (c : Fin τ.nSC) (f : Buf (Elt F) (iLoc d)) :
    ((iW).view.loc (S d c) ↦{fullShare} f : sProp 𝕄) = iLoc d ↦{fullShare} f := by
  simp only [Memref.view_whole, View.set_whole]
omit [FloatOps F] in
theorem pts_t (c : Fin τ.nSC) (f : Buf (Elt F) (tLoc d)) :
    ((tW).view.loc (S d c) ↦{fullShare} f : sProp 𝕄) = tLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) ((S d c).loc cc0_scratch0)) :
    ((sW).view.loc (S d c) ↦{fullShare} f : sProp 𝕄) = (S d c).loc cc0_scratch0 ↦{fullShare} f := rfl

omit [FloatOps F] in
/-- Reading the table through the 1 × 128 slice at the row the word 777 names gives row 777: the slice's entry
    `(0, j)` sits at `(777 + 0, 0 + j)` of the table. -/
theorem read_row (t : Buf (Elt F) (tLoc d)) (v : BitVec 32) (hv : v = 777#32) (hw : k0_chk1 v) :
    ((tW).slice (Rect.unit (s := S1000x128) (k0_off1 v) S1x128.size (k0_off1_inb v hw)) (fun _ => rfl)).view.read (Elt F) t
      = row777 d t := by
  subst hv
  funext y
  rw [View.read_apply]
  refine (cast_eq _ _).trans ?_
  unfold row777
  refine congrArg t ?_
  funext a
  apply Fin.ext
  have h0 : (y 0).val < 1 := (y 0).isLt
  match a with
  | ⟨0, _⟩ => show 777 + 1 * (y 0).val = 777; omega
  | ⟨1, _⟩ => show 0 + 1 * (y 1).val = (y 1).val; omega

/-- The sequencer of SparseCore 0. -/
abbrev S0 (h : 0 < grid0.bound 0) : Thread nD τ := S d ((⟨0, h⟩ : Fin (grid0.bound 0)).castLE hcore0)

theorem body₀ (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ given m d
        ∗ scopedBufs (S0 d h) ∗ scopedSems0 (S0 d h) ∗ owes (S0 d h) O W)
      ⊢ wp frame (wpE (defs₀ (F := F)) 𝒱₀ (S0 d h) none) Set.univ
          (cc0_k (coordsS ⟨0, h⟩) iW (Memref.isWhole_whole _) tW (Memref.isWhole_whole _) oW (Memref.isWhole_whole _) sW (Memref.isWhole_whole _) cc0_scoped0 cc0_scoped1)
          fun _ => iprop(done m d ∗ scopedBufs (S0 d h) ∗ scopedSems0 (S0 d h) ∗ ∃ W', ⌜∀ p ∈ W', p ∈ W ∨ p.2 = none⌝ ∗ owes (S0 d h) O W') := by
  simp only [cc0_k_eq_skeleton]; unfold cc0_k_skel
  unfold given
  iintro ⟨#Hlv, -, ⟨Hi, Ht, %fo, Ho⟩, Hsb, Hss, HO⟩
  ihave Hsb' := ((K (F := F)).scopedBufs_S_elim hF d (((⟨0, h⟩ : Fin (grid0.bound 0))).castLE hcore0)) $$ Hsb
  icases Hsb' with ⟨Hownb, Hsubb⟩
  ihave Hownb' := (Entails.of_eq (ownBufs_S (F := F) d (((⟨0, h⟩ : Fin (grid0.bound 0))).castLE hcore0))) $$ Hownb
  icases Hownb' with ⟨⟨%fs, Hs⟩, Hrestb⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, Hrest⟩
  ihave Hmw := ((K (F := F)).mayWaits_none (thr := S0 d h) hO) $$ Hlv
  ihave Hi' := (Entails.of_eq (pts_i (F := F) d (((⟨0, h⟩ : Fin (grid0.bound 0))).castLE hcore0) _).symm) $$ Hi
  ihave Ht' := (Entails.of_eq (pts_t (F := F) d (((⟨0, h⟩ : Fin (grid0.bound 0))).castLE hcore0) _).symm) $$ Ht
  ihave Ho' := (Entails.of_eq (pts_o (F := F) d (((⟨0, h⟩ : Fin (grid0.bound 0))).castLE hcore0) _).symm) $$ Ho
  ihave Hs' := (Entails.of_eq (pts_s (F := F) d (((⟨0, h⟩ : Fin (grid0.bound 0))).castLE hcore0) _).symm) $$ Hs
  sl_exec
  -- the word read back from the scalar memory is the index array's word, 777
  have hr : body₀.sl.r (F := F) d h fs = (777#32 : BitVec 32) := by
    unfold body₀.sl.r
    simp only [View.readAt_apply, Memref.view_whole, View.write_whole_univ, View.read_whole]
    unfold body₀.sl.dma0
    simp only [Memref.view_whole, View.read_whole]
    rfl
  -- so the slice it names lies inside the table's 1000 rows
  have hchk : k0_chk1 (body₀.sl.r (F := F) d h fs) := by rw [hr]; decide
  sl_exec
  -- what the second copy lands on the result array is row 777 of the table
  have hrow : View.write (Elt F) (oW).view fo (body₀.sl.dma0_1 (F := F) m d h fs hchk) Finset.univ = row777 d (m (tLoc d)) := by
    simp only [Memref.view_whole, View.write_whole_univ]
    unfold body₀.sl.dma0_1
    exact read_row d (m (tLoc d)) _ hr hchk
  rw [hrow]
  sl_step
  unfold done
  isplitl [Hi' Ht' Ho']
  · isplitl [Hi']; · iapply (Entails.of_eq (pts_i (F := F) d _ _)); iexact Hi'
    isplitl [Ht']; · iapply (Entails.of_eq (pts_t (F := F) d _ _)); iexact Ht'
    iapply (Entails.of_eq (pts_o (F := F) d _ _)); iexact Ho'
  isplitl [Hs' Hrestb Hsubb]
  · iapply ((K (F := F)).scopedBufs_S_intro hF d _)
    isplitl [Hs' Hrestb]
    · rw [ownBufs_S]
      isplitl [Hs']
      · iexists _; iexact Hs'
      · iexact Hrestb
    · iexact Hsubb
  isplitl [HsemA HsemB Hrest Hsubs]
  · iapply (SparseCore.Cfg.scopedSems0_S_intro (Val := Elt F) d _)
    isplitl [HsemA HsemB Hrest]
    · rw [ownSems0_S]
      isplitl [HsemA]; · iexact HsemA
      isplitl [HsemB]; · iexact HsemB
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with rfl | hp
    · exact .inr rfl
    rcases Finset.mem_insert.mp hp with rfl | hp
    · exact .inr rfl
    · exact .inl hp
  · iexact HO

end Body

/-! ## The launch theorem's obligation -/

theorem defs₀_scalar (c : Fin τ.nSC) :
    defs₀ (F := F) (.scScalar c) 0 ()
      = SparseCore.onCore hcore0 (fun c => cc0_k (coordsS c) iW (Memref.isWhole_whole _) tW (Memref.isWhole_whole _) oW (Memref.isWhole_whole _)
          sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The one call's obligation: the sequencer of SparseCore 0 runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ given m d ∗ _) ⊢ wp _ _ _ _ (fun _ => iprop(done m d ∗ _))
  match c with
  | ⟨0, h⟩ => exact (body₀ m d facts h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host program on the TensorCore -/

abbrev k' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The scalar key respelt as a one-word array. -/
abbrev opR : HloOp τ sig (Elt F) := StableHlo.reshape main_arg0 main_v0 rfl shapeCasts_S_S1

/-- The TensorCore's arrays, all unscoped: the key, the table, the index array, the result. -/
abbrev S4 : Finset (DevRef τ sig) := {k', t', i', o'}

omit [FloatOps F] in
theorem held_S4 (d : Dev nD) (W : Valuation τ sig (Elt F)) :
    (held (T d) S4 W : sProp 𝕄) = iprop((kLoc d ↦{fullShare} W k') ∗ (tLoc d ↦{fullShare} W t') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((kLoc d ↦{fullShare} W main_arg0) ∗ (tLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({k', i'} : Finset (DevRef τ sig)) ⊆ S4 by decide

/-- After the reshape the index array holds the key's word; with the key at 777, the word 777. The other arrays keep
    their launch contents. -/
theorem held_V1 (hkey : ∀ d, m (kLoc d) = fun _ => (777#32 : BitVec 32)) (d : Dev nD) :
    (held (T d) S4 ((opR (F := F)).result (V0 m d)) : sProp 𝕄)
      = iprop((kLoc d ↦{fullShare} m (kLoc d)) ∗ (tLoc d ↦{fullShare} m (tLoc d)) ∗ (iLoc d ↦{fullShare} idx777 (F := F) d) ∗ oLoc d ↦{fullShare} m (oLoc d)) := by
  have hi : (opR (F := F)).result (V0 m d) i' = idx777 (F := F) d := by
    refine (StableHlo.reshape_result main_arg0 main_v0 rfl shapeCasts_S_S1 ⟨by decide, rfl⟩ ⟨by decide, rfl⟩ (V0 m d)).trans ?_
    funext j
    show shapeCast S1 (m (kLoc d)) shapeCasts_S_S1 j = 777#32
    rw [hkey d]; rfl
  rw [held_S4, (opR (F := F)).result_of_not_mem (V0 m d) (b := k') (show k' ∉ ({i'} : Finset (DevRef τ sig)) by decide),
    (opR (F := F)).result_of_not_mem (V0 m d) (b := t') (show t' ∉ ({i'} : Finset (DevRef τ sig)) by decide),
    (opR (F := F)).result_of_not_mem (V0 m d) (b := o') (show o' ∉ ({i'} : Finset (DevRef τ sig)) by decide), hi]
  rfl

/-- What the call takes for its one SparseCore, and what it hands back. -/
theorem st0_eq (d : Dev nD) : (bigSep Finset.univ fun c : Fin ((K (F := F)).nCore 0) => (P m).st 0 d c) = given m d := by
  show (bigSep (Finset.univ : Finset (Fin 1)) fun _ => given m d) = _
  rw [show (Finset.univ : Finset (Fin 1)) = {0} by decide, bigSep_singleton]
theorem dn0_eq (d : Dev nD) : (bigSep Finset.univ fun c : Fin ((K (F := F)).nCore 0) => (P m).dn 0 d c) = done m d := by
  show (bigSep (Finset.univ : Finset (Fin 1)) fun _ => done m d) = _
  rw [show (Finset.univ : Finset (Fin 1)) = {0} by decide, bigSep_singleton]

/-- What the host program leaves the claim: the key and the table at their launch contents, the result at row 777. -/
abbrev FIN (d : Dev nD) : sProp 𝕄 :=
  iprop((kLoc d ↦{fullShare} m (kLoc d)) ∗ (tLoc d ↦{fullShare} m (tLoc d)) ∗ oLoc d ↦{fullShare} row777 d (m (tLoc d)))

theorem hmain (hkey : ∀ d, m (kLoc d) = fun _ => (777#32 : BitVec 32)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_V1 (F := F) m hkey d)) $$ Hheld
  icases Hh with ⟨Hk, Ht, Hi, Ho⟩
  rw [wp_ret]; imodintro
  -- the call: the three arrays to the sequencer and back, the result now row 777
  iapply ((K (F := F)).wp_run (D (F := F)) 𝒱 (EH := EH) (P := P m) κ d 0) $$ [Hst Hi Ht Ho Hb Hk]
  isplitr; · iexact Hctx
  isplitl [Hst]; · iexact Hst
  isplitl [Hi Ht Ho]
  · rw [st0_eq]; unfold given
    isplitl [Hi]; · iexact Hi
    isplitl [Ht]; · iexact Ht
    iexists _; iexact Ho
  iintro ⟨Hst, Hdn⟩
  ihave Hdn' := (Entails.of_eq (dn0_eq m d)) $$ Hdn
  unfold done
  icases Hdn' with ⟨-, Ht, Ho⟩
  imodintro
  isplitl [Hst]; · iexact Hst
  isplitl [Hk]; · iexact Hk
  isplitl [Ht]; · iexact Ht
  iexact Ho

/-- The final memory read against the host program's last assertion. -/
def fq (d : Dev nD) (s' : Phys nD τ sig (Elt F)) : Prop :=
  s'.mem.mem (oLoc d) = row777 d (m (tLoc d)) ∧ s'.mem.mem (kLoc d) = m (kLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hk, Ht, Ho⟩, HSI⟩
  ihave %hk := (SI_pointsTo_agree (st := s') (ℓ := kLoc d) (I := Finset.univ) (q := fullShare) (f := m (kLoc d))) $$ [HSI Hk]
  · isplitl [HSI] <;> iassumption
  ihave %ht := (SI_pointsTo_agree (st := s') (ℓ := tLoc d) (I := Finset.univ) (q := fullShare) (f := m (tLoc d))) $$ [HSI Ht]
  · isplitl [HSI] <;> iassumption
  ihave %ho := (SI_pointsTo_agree (st := s') (ℓ := oLoc d) (I := Finset.univ) (q := fullShare) (f := row777 d (m (tLoc d)))) $$ [HSI Ho]
  · isplitl [HSI] <;> iassumption
  ipureintro
  exact ⟨funext fun i => ho i (Finset.mem_univ i), funext fun i => hk i (Finset.mem_univ i), funext fun i => ht i (Finset.mem_univ i)⟩

/-! ## The program's run -/

/-- Every device ends with its result array at row 777 of its table, the key and the table unchanged. -/
def QC : PUnit × MemSt nD τ sig (Elt F) → Prop := fun r => ∀ c : Dev nD,
  r.2.mem (oLoc c) = row777 c (m (tLoc c)) ∧ r.2.mem (kLoc c) = m (kLoc c) ∧ r.2.mem (tLoc c) = m (tLoc c)

theorem run_main [∀ e, Nonempty (Elt F e)] (hkey : ∀ d, m (kLoc d) = fun _ => (777#32 : BitVec 32)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ hkey) (fq m) (hfin m) (QC m) (fun _ h => h)

end Cert.Proof.RowCopyKernel

end
-- ==== Proof.RowCopyKernelIdeal.lean ====
/-
  The idealized kernel's run. One sequencer of the device's first SparseCore copies the one-word index array
  into its scalar memory, reads the word `i`, and copies row `i` of the table (a 1 × 128 slice) onto the
  1 × 128 result; each copy is started and waited for on a semaphore of its own, so nothing is outstanding when the
  next begins. With the index word equal to 777 the slice is row 777, inside the table's 1000 rows, and the result
  array ends as that row, the table and the index unchanged.
-/
import proofs.«206550_g86517821210730_cont_sun_m_1190_6_alg».proof.KernelIdeal
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.ValueIdx
import proofs.«206550_g86517821210730_cont_sun_m_1190_6_alg».proof.Proof.Gen.KernelIdeal
import proofs.«206550_g86517821210730_cont_sun_m_1190_6_alg».proof.Proof.Gen.KernelIdeal.Skeleton

noncomputable section

namespace Cert.Proof.RowCopyKernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

local notation "iW" => (Memref.whole Cert.KernelIdeal.main_v0_scs : Memref Cert.KernelIdeal.sig Kind.scScalar Space.hbm Cert.KernelIdeal.S1 EltTy.i32)
local notation "tW" => (Memref.whole Cert.KernelIdeal.main_arg1_scs : Memref Cert.KernelIdeal.sig Kind.scScalar Space.hbm Cert.KernelIdeal.S1000x128 EltTy.f32)
local notation "oW" => (Memref.whole Cert.KernelIdeal.main_v1_scs : Memref Cert.KernelIdeal.sig Kind.scScalar Space.hbm Cert.KernelIdeal.S1x128 EltTy.f32)
local notation "sW" => (Memref.whole Cert.KernelIdeal.cc0_scratch0 : Memref Cert.KernelIdeal.sig Kind.scScalar Space.smem Cert.KernelIdeal.S1 EltTy.i32)

/-- The scalar key, the table, the one-word index array and the result, as the device's memory names them. -/
abbrev kLoc (d : Dev nD) : Loc nD τ sig := (SparseCore.T d).loc main_arg0
abbrev tLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

/-- The index array holding the word 777. -/
def idx777 (d : Dev nD) : Buf (Elt F) (iLoc d) := fun _ => (777#32 : BitVec 32)

/-- Row 777 of a table, as a 1 × 128 array: entry `(0, j)` is the table's entry `(777, j)`. -/
def row777 (d : Dev nD) (t : Buf (Elt F) (tLoc d)) : Buf (Elt F) (oLoc d) :=
  fun y => t (ValueIdx.ix2 (⟨777, by decide⟩ : Fin 1000) (y 1))

variable [FloatOps F]

/-- What the call hands the sequencer: the index array at 777, the table at its launch contents, the result array
    at whatever it holds. -/
def given (d : Dev nD) : sProp 𝕄 :=
  iprop((iLoc d ↦{fullShare} idx777 (F := F) d) ∗ (tLoc d ↦{fullShare} m (tLoc d)) ∗ ∃ f, oLoc d ↦{fullShare} f)

/-- What it takes back: the same, the result array now row 777 of the table. -/
def done (d : Dev nD) : sProp 𝕄 :=
  iprop((iLoc d ↦{fullShare} idx777 (F := F) d) ∗ (tLoc d ↦{fullShare} m (tLoc d)) ∗ oLoc d ↦{fullShare} row777 d (m (tLoc d)))

instance given_storable (d : Dev nD) : BI.Storable (upEmb : UEmb _ 𝕄) (given m d) := by
  unfold given; infer_instance
instance done_storable (d : Dev nD) : BI.Storable (upEmb : UEmb _ 𝕄) (done m d) := by
  unfold done; infer_instance

/-- The call's payloads: the three arrays out and back; the kernel's proof consumes nothing of the launch's. -/
def P : (K (F := F)).Pay (nD := nD) (Val := Elt F) (Name := ℕ) (U := UU) where
  st := fun _ d _ => given m d
  dn := fun _ d _ => done m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD)

def coordsS (c : Fin (grid0.bound 0)) : grid0.Coords := fun | 0 => c | ⟨_ + 1, h⟩ => absurd h (Nat.not_lt.2 (Nat.le_add_left _ _))

/-- The two copies' semaphores, as cells of the sequencer. -/
abbrev cellA (c : Fin τ.nSC) : GSem nD τ sig := (S d c, .dma cc0_scoped0.sem)
abbrev cellB (c : Fin τ.nSC) : GSem nD τ sig := (S d c, .dma cc0_scoped1.sem)

omit [FloatOps F] in
theorem ownSems0_S (c : Fin τ.nSC) :
    (ownSems0 (S d c) : sProp 𝕄) = iprop(semVal (cellA d c) 0 ∗ semVal (cellB d c) 0
      ∗ bigSep (((ownCells (S d c)).erase (cellA d c)).erase (cellB d c)) fun g => semVal g 0) := by
  unfold SparseCore.Cfg.ownSems0
  rw [SparseCore.bigSep_erase' ((mem_ownCells (g := cellA d c)).mpr ⟨rfl, by
      show (SemLoc.dma cc0_scoped0.sem : SemLoc sig).isScoped .scScalar = true; decide⟩),
    SparseCore.bigSep_erase' (Finset.mem_erase.mpr ⟨by simp [cellA, cellB]; decide, (mem_ownCells (g := cellB d c)).mpr ⟨rfl, by
      show (SemLoc.dma cc0_scoped1.sem : SemLoc sig).isScoped .scScalar = true; decide⟩⟩)]

omit [FloatOps F] in
/-- The sequencer's scalar scratch is among its own buffers: it, at some contents, and the rest. -/
theorem ownBufs_S (c : Fin τ.nSC) :
    (ownBufs (S d c) : sProp 𝕄)
      = iprop((∃ f, (S d c).loc cc0_scratch0 ↦{fullShare} f)
          ∗ bigSep ((ownRefs (τ := τ) (.scScalar c)).erase ((Proc.scScalar c).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scScalar c)
    (b := (Proc.scScalar c).devRef cc0_scratch0) rfl)

omit [FloatOps F] in
/-- The arrays as the sequencer's memrefs address them are the device's arrays. -/
theorem pts_i (c : Fin τ.nSC) (f : Buf (Elt F) (iLoc d)) :
    ((iW).view.loc (S d c) ↦{fullShare} f : sProp 𝕄) = iLoc d ↦{fullShare} f := by
  simp only [Memref.view_whole, View.set_whole]
omit [FloatOps F] in
theorem pts_t (c : Fin τ.nSC) (f : Buf (Elt F) (tLoc d)) :
    ((tW).view.loc (S d c) ↦{fullShare} f : sProp 𝕄) = tLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄) = oLoc d ↦{fullShare} f := by
  simp only [Memref.view_whole, View.set_whole]
omit [FloatOps F] in
theorem pts_s (c : Fin τ.nSC) (f : Buf (Elt F) ((S d c).loc cc0_scratch0)) :
    ((sW).view.loc (S d c) ↦{fullShare} f : sProp 𝕄) = (S d c).loc cc0_scratch0 ↦{fullShare} f := rfl

omit [FloatOps F] in
/-- Reading the table through the 1 × 128 slice at the row the word 777 names gives row 777: the slice's entry
    `(0, j)` sits at `(777 + 0, 0 + j)` of the table. -/
theorem read_row (t : Buf (Elt F) (tLoc d)) (v : BitVec 32) (hv : v = 777#32) (hw : k0_chk1 v) :
    ((tW).slice (Rect.unit (s := S1000x128) (k0_off1 v) S1x128.size (k0_off1_inb v hw)) (fun _ => rfl)).view.read (Elt F) t
      = row777 d t := by
  subst hv
  funext y
  rw [View.read_apply]
  refine (cast_eq _ _).trans ?_
  unfold row777
  refine congrArg t ?_
  funext a
  apply Fin.ext
  have h0 : (y 0).val < 1 := (y 0).isLt
  match a with
  | ⟨0, _⟩ => show 777 + 1 * (y 0).val = 777; omega
  | ⟨1, _⟩ => show 0 + 1 * (y 1).val = (y 1).val; omega

/-- The sequencer of SparseCore 0. -/
abbrev S0 (h : 0 < grid0.bound 0) : Thread nD τ := S d ((⟨0, h⟩ : Fin (grid0.bound 0)).castLE hcore0)

theorem body₀ (hF : (K (F := F)).Facts) (h : 0 < grid0.bound 0) (O : CellTallies nD τ sig (HIx 1)) (W : Waits sig (HIx 1)) (hO : ∀ g, O g none = 0) :
    iprop(levAts (K (F := F)).L (K (F := F)).lev ∗ emp ∗ given m d
        ∗ scopedBufs (S0 d h) ∗ scopedSems0 (S0 d h) ∗ owes (S0 d h) O W)
      ⊢ wp frame (wpE (defs₀ (F := F)) 𝒱₀ (S0 d h) none) Set.univ
          (cc0_k (coordsS ⟨0, h⟩) iW (Memref.isWhole_whole _) tW (Memref.isWhole_whole _) oW (Memref.isWhole_whole _) sW (Memref.isWhole_whole _) cc0_scoped0 cc0_scoped1)
          fun _ => iprop(done m d ∗ scopedBufs (S0 d h) ∗ scopedSems0 (S0 d h) ∗ ∃ W', ⌜∀ p ∈ W', p ∈ W ∨ p.2 = none⌝ ∗ owes (S0 d h) O W') := by
  simp only [cc0_k_eq_skeleton]; unfold cc0_k_skel
  unfold given
  iintro ⟨#Hlv, -, ⟨Hi, Ht, %fo, Ho⟩, Hsb, Hss, HO⟩
  ihave Hsb' := ((K (F := F)).scopedBufs_S_elim hF d (((⟨0, h⟩ : Fin (grid0.bound 0))).castLE hcore0)) $$ Hsb
  icases Hsb' with ⟨Hownb, Hsubb⟩
  ihave Hownb' := (Entails.of_eq (ownBufs_S (F := F) d (((⟨0, h⟩ : Fin (grid0.bound 0))).castLE hcore0))) $$ Hownb
  icases Hownb' with ⟨⟨%fs, Hs⟩, Hrestb⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨HsemA, HsemB, Hrest⟩
  ihave Hmw := ((K (F := F)).mayWaits_none (thr := S0 d h) hO) $$ Hlv
  ihave Hi' := (Entails.of_eq (pts_i (F := F) d (((⟨0, h⟩ : Fin (grid0.bound 0))).castLE hcore0) _).symm) $$ Hi
  ihave Ht' := (Entails.of_eq (pts_t (F := F) d (((⟨0, h⟩ : Fin (grid0.bound 0))).castLE hcore0) _).symm) $$ Ht
  ihave Ho' := (Entails.of_eq (pts_o (F := F) d (((⟨0, h⟩ : Fin (grid0.bound 0))).castLE hcore0) _).symm) $$ Ho
  ihave Hs' := (Entails.of_eq (pts_s (F := F) d (((⟨0, h⟩ : Fin (grid0.bound 0))).castLE hcore0) _).symm) $$ Hs
  sl_exec
  -- the word read back from the scalar memory is the index array's word, 777
  have hr : body₀.sl.r (F := F) d h fs = (777#32 : BitVec 32) := by
    unfold body₀.sl.r
    simp only [View.readAt_apply, Memref.view_whole, View.write_whole_univ, View.read_whole]
    unfold body₀.sl.dma0
    simp only [Memref.view_whole, View.read_whole]
    rfl
  -- so the slice it names lies inside the table's 1000 rows
  have hchk : k0_chk1 (body₀.sl.r (F := F) d h fs) := by rw [hr]; decide
  sl_exec
  -- what the second copy lands on the result array is row 777 of the table
  have hrow : View.write (Elt F) (oW).view fo (body₀.sl.dma0_1 (F := F) m d h fs hchk) Finset.univ = row777 d (m (tLoc d)) := by
    simp only [Memref.view_whole, View.write_whole_univ]
    unfold body₀.sl.dma0_1
    exact read_row d (m (tLoc d)) _ hr hchk
  rw [hrow]
  sl_step
  unfold done
  isplitl [Hi' Ht' Ho']
  · isplitl [Hi']; · iapply (Entails.of_eq (pts_i (F := F) d _ _)); iexact Hi'
    isplitl [Ht']; · iapply (Entails.of_eq (pts_t (F := F) d _ _)); iexact Ht'
    iapply (Entails.of_eq (pts_o (F := F) d _ _)); iexact Ho'
  isplitl [Hs' Hrestb Hsubb]
  · iapply ((K (F := F)).scopedBufs_S_intro hF d _)
    isplitl [Hs' Hrestb]
    · rw [ownBufs_S]
      isplitl [Hs']
      · iexists _; iexact Hs'
      · iexact Hrestb
    · iexact Hsubb
  isplitl [HsemA HsemB Hrest Hsubs]
  · iapply (SparseCore.Cfg.scopedSems0_S_intro (Val := Elt F) d _)
    isplitl [HsemA HsemB Hrest]
    · rw [ownSems0_S]
      isplitl [HsemA]; · iexact HsemA
      isplitl [HsemB]; · iexact HsemB
      iexact Hrest
    · iexact Hsubs
  iexists (insert (SemLoc.dma cc0_scoped1.sem, (default : HIx 1)) (insert (SemLoc.dma cc0_scoped0.sem, (default : HIx 1)) W)); isplitr
  · ipureintro; intro p hp
    rcases Finset.mem_insert.mp hp with rfl | hp
    · exact .inr rfl
    rcases Finset.mem_insert.mp hp with rfl | hp
    · exact .inr rfl
    · exact .inl hp
  · iexact HO

end Body

/-! ## The launch theorem's obligation -/

theorem defs₀_scalar (c : Fin τ.nSC) :
    defs₀ (F := F) (.scScalar c) 0 ()
      = SparseCore.onCore hcore0 (fun c => cc0_k (coordsS c) iW (Memref.isWhole_whole _) tW (Memref.isWhole_whole _) oW (Memref.isWhole_whole _)
          sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The one call's obligation: the sequencer of SparseCore 0 runs the body. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ given m d ∗ _) ⊢ wp _ _ _ _ (fun _ => iprop(done m d ∗ _))
  match c with
  | ⟨0, h⟩ => exact (body₀ m d facts h O W hO).trans (wp_mono frame _ _ fun _ => obl_post)

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The host program on the TensorCore -/

abbrev k' : DevRef τ sig := Proc.devRef .tc (main_arg0 : Ref sig .tc)
abbrev t' : DevRef τ sig := Proc.devRef .tc (main_arg1 : Ref sig .tc)
abbrev i' : DevRef τ sig := Proc.devRef .tc (main_v0 : Ref sig .tc)
abbrev o' : DevRef τ sig := Proc.devRef .tc (main_v1 : Ref sig .tc)
/-- The scalar key respelt as a one-word array. -/
abbrev opR : HloOp τ sig (Elt F) := StableHlo.reshape main_arg0 main_v0 rfl shapeCasts_S_S1

/-- The TensorCore's arrays, all unscoped: the key, the table, the index array, the result. -/
abbrev S4 : Finset (DevRef τ sig) := {k', t', i', o'}

omit [FloatOps F] in
theorem held_S4 (d : Dev nD) (W : Valuation τ sig (Elt F)) :
    (held (T d) S4 W : sProp 𝕄) = iprop((kLoc d ↦{fullShare} W k') ∗ (tLoc d ↦{fullShare} W t') ∗ (iLoc d ↦{fullShare} W i') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((kLoc d ↦{fullShare} W main_arg0) ∗ (tLoc d ↦{fullShare} W main_arg1) ∗ (iLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S4 (V0 m d) := by
  rw [unscopedBufs_eq, held_S4]; rfl

theorem hR : (opR (F := F)).bufs ⊆ S4 := show ({k', i'} : Finset (DevRef τ sig)) ⊆ S4 by decide

/-- After the reshape the index array holds the key's word; with the key at 777, the word 777. The other arrays keep
    their launch contents. -/
theorem held_V1 (hkey : ∀ d, m (kLoc d) = fun _ => (777#32 : BitVec 32)) (d : Dev nD) :
    (held (T d) S4 ((opR (F := F)).result (V0 m d)) : sProp 𝕄)
      = iprop((kLoc d ↦{fullShare} m (kLoc d)) ∗ (tLoc d ↦{fullShare} m (tLoc d)) ∗ (iLoc d ↦{fullShare} idx777 (F := F) d) ∗ oLoc d ↦{fullShare} m (oLoc d)) := by
  have hi : (opR (F := F)).result (V0 m d) i' = idx777 (F := F) d := by
    refine (StableHlo.reshape_result main_arg0 main_v0 rfl shapeCasts_S_S1 ⟨by decide, rfl⟩ ⟨by decide, rfl⟩ (V0 m d)).trans ?_
    funext j
    show shapeCast S1 (m (kLoc d)) shapeCasts_S_S1 j = 777#32
    rw [hkey d]; rfl
  rw [held_S4, (opR (F := F)).result_of_not_mem (V0 m d) (b := k') (show k' ∉ ({i'} : Finset (DevRef τ sig)) by decide),
    (opR (F := F)).result_of_not_mem (V0 m d) (b := t') (show t' ∉ ({i'} : Finset (DevRef τ sig)) by decide),
    (opR (F := F)).result_of_not_mem (V0 m d) (b := o') (show o' ∉ ({i'} : Finset (DevRef τ sig)) by decide), hi]
  rfl

/-- What the call takes for its one SparseCore, and what it hands back. -/
theorem st0_eq (d : Dev nD) : (bigSep Finset.univ fun c : Fin ((K (F := F)).nCore 0) => (P m).st 0 d c) = given m d := by
  show (bigSep (Finset.univ : Finset (Fin 1)) fun _ => given m d) = _
  rw [show (Finset.univ : Finset (Fin 1)) = {0} by decide, bigSep_singleton]
theorem dn0_eq (d : Dev nD) : (bigSep Finset.univ fun c : Fin ((K (F := F)).nCore 0) => (P m).dn 0 d c) = done m d := by
  show (bigSep (Finset.univ : Finset (Fin 1)) fun _ => done m d) = _
  rw [show (Finset.univ : Finset (Fin 1)) = {0} by decide, bigSep_singleton]

/-- What the host program leaves the claim: the key and the table at their launch contents, the result at row 777. -/
abbrev FIN (d : Dev nD) : sProp 𝕄 :=
  iprop((kLoc d ↦{fullShare} m (kLoc d)) ∗ (tLoc d ↦{fullShare} m (tLoc d)) ∗ oLoc d ↦{fullShare} row777 d (m (tLoc d)))

theorem hmain (hkey : ∀ d, m (kLoc d) = fun _ => (777#32 : BitVec 32)) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  ihave Hh := (Entails.of_eq (held_V1 (F := F) m hkey d)) $$ Hheld
  icases Hh with ⟨Hk, Ht, Hi, Ho⟩
  rw [wp_ret]; imodintro
  -- the call: the three arrays to the sequencer and back, the result now row 777
  iapply ((K (F := F)).wp_run (D (F := F)) 𝒱 (EH := EH) (P := P m) κ d 0) $$ [Hst Hi Ht Ho Hb Hk]
  isplitr; · iexact Hctx
  isplitl [Hst]; · iexact Hst
  isplitl [Hi Ht Ho]
  · rw [st0_eq]; unfold given
    isplitl [Hi]; · iexact Hi
    isplitl [Ht]; · iexact Ht
    iexists _; iexact Ho
  iintro ⟨Hst, Hdn⟩
  ihave Hdn' := (Entails.of_eq (dn0_eq m d)) $$ Hdn
  unfold done
  icases Hdn' with ⟨-, Ht, Ho⟩
  imodintro
  isplitl [Hst]; · iexact Hst
  isplitl [Hk]; · iexact Hk
  isplitl [Ht]; · iexact Ht
  iexact Ho

/-- The final memory read against the host program's last assertion. -/
def fq (d : Dev nD) (s' : Phys nD τ sig (Elt F)) : Prop :=
  s'.mem.mem (oLoc d) = row777 d (m (tLoc d)) ∧ s'.mem.mem (kLoc d) = m (kLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hk, Ht, Ho⟩, HSI⟩
  ihave %hk := (SI_pointsTo_agree (st := s') (ℓ := kLoc d) (I := Finset.univ) (q := fullShare) (f := m (kLoc d))) $$ [HSI Hk]
  · isplitl [HSI] <;> iassumption
  ihave %ht := (SI_pointsTo_agree (st := s') (ℓ := tLoc d) (I := Finset.univ) (q := fullShare) (f := m (tLoc d))) $$ [HSI Ht]
  · isplitl [HSI] <;> iassumption
  ihave %ho := (SI_pointsTo_agree (st := s') (ℓ := oLoc d) (I := Finset.univ) (q := fullShare) (f := row777 d (m (tLoc d)))) $$ [HSI Ho]
  · isplitl [HSI] <;> iassumption
  ipureintro
  exact ⟨funext fun i => ho i (Finset.mem_univ i), funext fun i => hk i (Finset.mem_univ i), funext fun i => ht i (Finset.mem_univ i)⟩

/-! ## The program's run -/

/-- Every device ends with its result array at row 777 of its table, the key and the table unchanged. -/
def QC : PUnit × MemSt nD τ sig (Elt F) → Prop := fun r => ∀ c : Dev nD,
  r.2.mem (oLoc c) = row777 c (m (tLoc c)) ∧ r.2.mem (kLoc c) = m (kLoc c) ∧ r.2.mem (tLoc c) = m (tLoc c)

theorem run_main [∀ e, Nonempty (Elt F e)] (hkey : ∀ d, m (kLoc d) = fun _ => (777#32 : BitVec 32)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ hkey) (fq m) (hfin m) (QC m) (fun _ h => h)

end Cert.Proof.RowCopyKernelIdeal

end
-- ==== Proof.TakeValue.lean ====
/-
  The reference's function. `take` along the table's rows, out-of-range indices filled: a negative index is wrapped
  (`i + 1000`), the row the wrapped index names is gathered (its start clamped into `[0, 999]`), and where the
  wrapped index lies outside `[0, 999]` the row is replaced by a filler value. At the index 777 nothing wraps, the
  range test passes, the clamp is the identity, and the result is row 777 of the table: entry `(0, j)` is the
  table's entry `(777, j)`.
-/
import proofs.«206550_g86517821210730_cont_sun_m_1190_6_alg».proof.ReferenceIdeal
import proofs.«206550_g86517821210730_cont_sun_m_1190_6_alg».proof.Proof.Gen.ReferenceIdeal
import Idealize.ShloMosaic.Lib.ValueIdx
import Idealize.ShloMosaic.PureOps.Reduce

noncomputable section

namespace Cert.Proof.TakeValue

open Idealize.ShloMosaic Cert.ReferenceIdeal Cert.ReferenceIdeal.Gen

variable {F : FTy → Type} [FloatOps F]

/-- The index as a one-word array, wrapped when negative, then as a 1 × 1 array of start indices. -/
def wrapped (k : IVec S_ 32) : IVec S1x1 32 :=
  broadcastInDim S1x1 ![0] bcast_S1_S1x1_0
    (select (cmpi .slt (broadcastInDim S1 ![] bcast_S_S1 k) (broadcastInDim S1 ![] bcast_S_S1 (constantI S_ 32 0#32)))
      (addi (broadcastInDim S1 ![] bcast_S_S1 k) (broadcastInDim S1 ![] bcast_S_S1 (constantI S_ 32 1000#32)))
      (broadcastInDim S1 ![] bcast_S_S1 k))

/-- Whether the wrapped index lies in `[0, 999]`: both comparisons, reduced over the index vector's one component. -/
def inRange (k : IVec S_ 32) : IVec S1 1 :=
  Host.reduce IntOp.andi
    (andi (cmpi .sge (wrapped k) (broadcastInDim S1x1 ![] bcast_S_S1x1 (constantI S_ 32 0#32)))
      (cmpi .sle (wrapped k) (broadcastInDim S1x1 ![1] bcast_S1_S1x1_1 (constantI S1 32 999#32))))
    (constantI S_ 1 1#1) reducesTo_S1x1_S1_d1 h_S_

/-- The gathered row where the index is in range, the filler elsewhere. -/
def take (k : IVec S_ 32) (t : FVec F S1000x128 .f32) : FVec F S1x128 .f32 :=
  select (broadcastInDim S1x128 ![0] bcast_S1_S1x128_0 (inRange k))
    (Host.gather gather_S1000x128_S1x1_S1x128_1_0_n_n_0_1_1128 t (wrapped k))
    (broadcastInDim S1x128 ![] bcast_S_S1x128 (constant S_ .f32 0x7FC00000#32))

/-- Row 777 of a table as a 1 × 128 array. -/
def row777 (t : FVec F S1000x128 .f32) : FVec F S1x128 .f32 :=
  fun y => t (ValueIdx.ix2 (⟨777, by decide⟩ : Fin 1000) (y 1))

/-- 777 is not negative: the wrapped index is 777. -/
theorem wrapped_777 : wrapped (fun _ => (777#32 : BitVec 32)) = fun _ => (777#32 : BitVec 32) := by
  funext b
  rfl

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_ones f hf l

/-- 0 ≤ 777 ≤ 999: the range test passes. -/
theorem inRange_777 : inRange (fun _ => (777#32 : BitVec 32)) = fun _ => (1#1 : BitVec 1) := by
  funext j
  unfold inRange
  rw [Host.reduce_eq_foldl, wrapped_777]
  exact foldl_andi_ones
    (fun i => andi (cmpi .sge (fun _ => (777#32 : BitVec 32)) (broadcastInDim S1x1 ![] bcast_S_S1x1 (constantI S_ 32 0#32)))
      (cmpi .sle (fun _ => (777#32 : BitVec 32)) (broadcastInDim S1x1 ![1] bcast_S1_S1x1_1 (constantI S1 32 999#32))) i)
    (fun _ => IntOp.andi_eq_one.2
      ⟨IntOp.cmpi_sge.2 (show (0#32 : BitVec 32).toInt ≤ (777#32 : BitVec 32).toInt by decide),
        IntOp.cmpi_sle.2 (show (777#32 : BitVec 32).toInt ≤ (999#32 : BitVec 32).toInt by decide)⟩) _

/-- The gather at start indices that all hold 777 reads row 777: on the row axis the start `min 777 999 = 777` and
    no offset (the axis is collapsed); on the column axis no start and the result's own column. -/
theorem gather_row (t : FVec F S1000x128 .f32) (idx : IVec S1x1 32) (hidx : ∀ b, idx b = (777#32 : BitVec 32)) (y : S1x128.Idx) :
    Host.gather gather_S1000x128_S1x1_S1x128_1_0_n_n_0_1_1128 t idx y = row777 t y := by
  unfold Host.gather row777
  refine congrArg t (funext (Fin.forall_fin_two.mpr ⟨Fin.ext ?_, Fin.ext ?_⟩))
  · show gather_S1000x128_S1x1_S1x128_1_0_n_n_0_1_1128.start y idx 0 + gather_S1000x128_S1x1_S1x128_1_0_n_n_0_1_1128.batchCoord y 0
      + gather_S1000x128_S1x1_S1x128_1_0_n_n_0_1_1128.offCoord y 0 = 777
    rw [GatherDims.batchCoord_eq_zero _ _ _ List.not_mem_nil,
      GatherDims.offCoord_eq_zero _ _ _ (fun h => ((GatherDims.mem_sKept _ _).mp h).1 (List.mem_singleton.mpr rfl))]
    unfold GatherDims.start
    split
    · rw [hidx]; rfl
    · rename_i hn; exact absurd (List.mem_singleton.mpr rfl) hn
  · show gather_S1000x128_S1x1_S1x128_1_0_n_n_0_1_1128.start y idx 1 + gather_S1000x128_S1x1_S1x128_1_0_n_n_0_1_1128.batchCoord y 1
      + gather_S1000x128_S1x1_S1x128_1_0_n_n_0_1_1128.offCoord y 1 = (y 1).val
    rw [GatherDims.batchCoord_eq_zero _ _ _ List.not_mem_nil]
    unfold GatherDims.start GatherDims.offCoord
    rw [dif_neg (by decide), dif_pos (by decide)]
    show 0 + 0 + (y 1).val = (y 1).val
    omega

/-- At the index 777 the reference's function is row 777 of the table. -/
theorem take_777 (t : FVec F S1000x128 .f32) : take (F := F) (fun _ => (777#32 : BitVec 32)) t = row777 t := by
  funext y
  unfold take
  rw [inRange_777, wrapped_777]
  exact gather_row t _ (fun _ => rfl) y

end Cert.Proof.TakeValue

end
-- ==== Proof.TakeRun.lean ====
/-
  The reference's run. Its host program is one straight line of twenty-three operations: the key respelt as a
  one-word array, then `take` with fill inlined (the index wrapped when negative, the start indices, the range test
  and its reduction, the gather, the filler, the select). Every weakly fair execution ends with the result array at
  those operations' composed term of the key and the table, which is the function `take`, and the key and the table
  unchanged.
-/
import proofs.«206550_g86517821210730_cont_sun_m_1190_6_alg».proof.Proof.TakeValue
import Idealize.ShloMosaic.Lib.StableHlo.Run

noncomputable section

namespace Cert.Proof.TakeRun

open Cert.ReferenceIdeal Cert.ReferenceIdeal.Gen Idealize.ShloMosaic Idealize.ShloMosaic.TcCoe Idealize.SL.Sem Idealize.ShloMosaic.StableHlo
open Cert.Proof.TakeValue (take)

variable {F : FTy → Type} [FloatOps F]

/-- The host program's operations, in order: the callees' lines stand at their call sites over the call's buffers. -/
abbrev ops : List (HloOp τ sig (Elt F)) :=
  [ unary main_arg0 main_v0 (broadcastInDim S1 ![] bcast_S_S1 : (⟨S_, .i32⟩ : BufTy).Contents (Elt F) → (⟨S1, .i32⟩ : BufTy).Contents (Elt F)),
    TRef.nullary main_call0.c (constantI S_ 32 0#32),
    TRef.unary main_call0.c main_call0.v0 (broadcastInDim S1 ![] bcast_S_S1),
    TRef.binary (.of main_v0) main_call0.v0 main_call0.v1 (cmpi .slt),
    TRef.nullary main_call0.c_0 (constantI S_ 32 1000#32),
    TRef.unary main_call0.c_0 main_call0.v2 (broadcastInDim S1 ![] bcast_S_S1),
    TRef.binary (.of main_v0) main_call0.v2 main_call0.v3 addi,
    TRef.ternary main_call0.v1 main_call0.v3 (.of main_v0) main_call0.call0.v0 select,
    TRef.unary main_call0.call0.v0 main_call0.v5 (broadcastInDim S1x1 ![0] bcast_S1_S1x1_0),
    TRef.nullary main_call0.c_1 (constantI S1 32 999#32),
    TRef.nullary main_call0.c_2 (constantI S_ 32 0#32),
    TRef.unary main_call0.c_2 main_call0.v6 (broadcastInDim S1x1 ![] bcast_S_S1x1),
    TRef.binary main_call0.v5 main_call0.v6 main_call0.v7 (cmpi .sge),
    TRef.unary main_call0.c_1 main_call0.v8 (broadcastInDim S1x1 ![1] bcast_S1_S1x1_1),
    TRef.binary main_call0.v5 main_call0.v8 main_call0.v9 (cmpi .sle),
    TRef.binary main_call0.v7 main_call0.v9 main_call0.v10 andi,
    TRef.nullary main_call0.c_3 (constantI S_ 1 1#1),
    TRef.binary main_call0.v10 main_call0.c_3 main_call0.v11 (fun x v => Host.reduce IntOp.andi x v reducesTo_S1x1_S1_d1 h_S_),
    TRef.binary (.of main_arg1) main_call0.v5 main_call0.v12 (fun x i => Host.gather gather_S1000x128_S1x1_S1x128_1_0_n_n_0_1_1128 x i),
    TRef.unary main_call0.v11 main_call0.v13 (broadcastInDim S1x128 ![0] bcast_S1_S1x128_0),
    TRef.nullary main_call0.cst (constant S_ .f32 0x7FC00000#32),
    TRef.unary main_call0.cst main_call0.v14 (broadcastInDim S1x128 ![] bcast_S_S1x128),
    TRef.ternary main_call0.v13 main_call0.v12 main_call0.v14 main_call0.v15 select ]

set_option maxRecDepth 1024 in
/-- The host program is that straight line: the callees unfolded at their calls and sequencing reassociated. -/
theorem main_eq (c : Dev nD) : main (F := F) c = seq ops := by
  simp only [main, fn_take.body, fn_where.body, seq, bind_assoc, pure_bind]

set_option maxHeartbeats 1600000 in
/-- The operations' fold at the result array is `take` of the key and the table: each operation's result read at its
    own buffer is its function of its operands' contents, and at any other buffer what was there. -/
theorem out_eq (V : Valuation τ sig (Elt F)) :
    after ops V (main_v1 : DevRef τ sig) = take (F := F) (V (main_arg0 : DevRef τ sig)) (V (main_arg1 : DevRef τ sig)) := by
  unfold Cert.Proof.TakeValue.take Cert.Proof.TakeValue.inRange Cert.Proof.TakeValue.wrapped
  after_results
  simp only [TRef.toBuf, TRef.ofBuf, cast_eq]

theorem arg0_eq (V : Valuation τ sig (Elt F)) : after ops V (main_arg0 : DevRef τ sig) = V (main_arg0 : DevRef τ sig) := by
  after_results

theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, from any memory with zero counters: every weakly fair execution of the host program terminates
    with the result array at `take` of the launch key and table, the key and the table unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = take (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v1).trans (out_eq _), (h c main_arg0).trans (arg0_eq _), (h c main_arg1).trans (arg1_eq _)⟩)
    (run_seq scopedRefs_eq scopedSems_eq defs main (fun _ => ops) main_eq (fun _ => ops_sub) m ρ)

end Cert.Proof.TakeRun

end
-- ==== Proof.lean ====
/-
  The claim. The kernel copies the key's word into scalar memory, reads it, and copies the table row it names onto
  the result; the reference takes the row the key names, wrapping a negative key and filling where the wrapped key
  falls outside the table. The input domain pins the key at 777, inside the table's 1000 rows: the kernel's row slice
  is in range (so each of its programs runs to the end, faulting nowhere, its arguments unchanged), the reference
  neither wraps nor fills, and both results are row 777 of the table, entry by entry — pure data movement, no float
  arithmetic, so the two agree as extended reals with no use of the entries' finiteness. The idealization rewrote no
  operation, so it preserves the kernel trivially.
-/
import proofs.«206550_g86517821210730_cont_sun_m_1190_6_alg».proof.Defs
import proofs.«206550_g86517821210730_cont_sun_m_1190_6_alg».proof.Proof.Gen.Kernel
import proofs.«206550_g86517821210730_cont_sun_m_1190_6_alg».proof.Proof.Gen.Kernel.Skeleton
import proofs.«206550_g86517821210730_cont_sun_m_1190_6_alg».proof.Proof.Gen.KernelIdeal
import proofs.«206550_g86517821210730_cont_sun_m_1190_6_alg».proof.Proof.Gen.KernelIdeal.Skeleton
import proofs.«206550_g86517821210730_cont_sun_m_1190_6_alg».proof.Proof.Gen.ReferenceIdeal
import proofs.«206550_g86517821210730_cont_sun_m_1190_6_alg».proof.Proof.Gen.Pre_input_domain
import proofs.«206550_g86517821210730_cont_sun_m_1190_6_alg».proof.Proof.KeyOfPre
import proofs.«206550_g86517821210730_cont_sun_m_1190_6_alg».proof.Proof.RowCopyKernel
import proofs.«206550_g86517821210730_cont_sun_m_1190_6_alg».proof.Proof.RowCopyKernelIdeal
import proofs.«206550_g86517821210730_cont_sun_m_1190_6_alg».proof.Proof.TakeRun
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_input_domain.Gen.facts

/-- The word-level kernel runs and keeps its arguments: its run, with the result's value dropped. -/
theorem frame_k : Cert.frame_Kernel := fun m ρ hpre =>
  (θ_run Cert.Kernel.defs _ _).mono (fun _ h c => ⟨(h c).2.1, (h c).2.2⟩)
    (RowCopyKernel.run_main (F := Bits) m ρ (fun d => KeyOfPre.key_eq _ _ (hpre d)))

/-- The idealized kernel likewise. -/
theorem frame_ki : Cert.frame_KernelIdeal := fun m ρ hpre =>
  (θ_run Cert.KernelIdeal.defs _ _).mono (fun _ h c => ⟨(h c).2.1, (h c).2.2⟩)
    (RowCopyKernelIdeal.run_main (F := Ideal) m ρ (fun d => KeyOfPre.key_eq _ _ (hpre d)))

/-- The reference runs and keeps its arguments, whatever the key. -/
theorem frame_ri : Cert.frame_ReferenceIdeal := fun m ρ _ =>
  (θ_run Cert.ReferenceIdeal.defs _ _).mono (fun _ h c => (h c).2) (TakeRun.run (F := Ideal) m ρ)

/-- The idealization rewrote nothing. -/
theorem preserves : Cert.preserves_Kernel_KernelIdeal := trivial

/-- From memories that agree on the key and the table, both programs end with the result at row 777 of the table:
    the kernel by its run, the reference because `take` at the key 777 is that row. -/
theorem algebraic : Cert.algebraic_KernelIdeal_ReferenceIdeal := by
  intro m ρ m' ρ' hpre hagree
  have hkey : ∀ d, m (RowCopyKernelIdeal.kLoc d) = fun _ => (777#32 : BitVec 32) := fun d => KeyOfPre.key_eq _ _ (hpre d)
  refine ⟨fun c => RowCopyKernelIdeal.row777 c (m (RowCopyKernelIdeal.tLoc c)),
    (θ_run Cert.KernelIdeal.defs _ _).mono (fun _ h c => h c) (RowCopyKernelIdeal.run_main (F := Ideal) m ρ hkey), ?_⟩
  refine (θ_run Cert.ReferenceIdeal.defs _ _).mono (fun _ h c => ⟨(h c).1.trans ?_, (h c).2⟩) (TakeRun.run (F := Ideal) m' ρ')
  rw [(hagree c).1, (hagree c).2]
  exact (congrArg (fun k => TakeValue.take (F := Ideal) k _) (hkey c)).trans (TakeValue.take_777 _)

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
